-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1024x2048 : Shape := ⟨3, ![3, 1024, 2048]⟩
abbrev S30x3 : Shape := ⟨2, ![30, 3]⟩
abbrev S_ : Shape := ⟨0, ![]⟩

class Facts : Prop where
  bcast_S_S3x1024x2048 : S_.BroadcastsInDim S3x1024x2048 (![] : Fin 0 → Fin S3x1024x2048.rank)
  reducesTo_S3x1024x2048_S_d0_1_2 : S3x1024x2048.ReducesTo [0, 1, 2] S_
  h_S_ : 0 < S_.numel
  bcast_S_S30x3 : S_.BroadcastsInDim S30x3 (![] : Fin 0 → Fin S30x3.rank)
  reducesTo_S30x3_S_d0_1 : S30x3.ReducesTo [0, 1] S_

variable [Facts]

def fn {F : FTy → Type} [FloatOps F] (main_arg0 : FVec F S3x1024x2048 .f32) (main_arg1 : FVec F S30x3 .f32) : IVec S_ 1 :=
  let main_v0 : FVec F S3x1024x2048 .f32 := Host.absf main_arg0
  let main_cst : FVec F S_ .f32 := constant S_ .f32 0x7F800000#32
  let main_v1 : FVec F S3x1024x2048 .f32 := broadcastInDim S3x1024x2048 ![] bcast_S_S3x1024x2048 main_cst
  let main_v2 : IVec S3x1024x2048 1 := cmpf .olt main_v0 main_v1
  let main_c : IVec S_ 1 := constantI S_ 1 1#1
  let main_v3 : IVec S_ 1 := (fun x v => Host.reduce IntOp.andi x v reducesTo_S3x1024x2048_S_d0_1_2 h_S_) main_v2 main_c
  let main_v4 : FVec F S30x3 .f32 := Host.absf main_arg1
  let main_cst_0 : FVec F S_ .f32 := constant S_ .f32 0x7F800000#32
  let main_v5 : FVec F S30x3 .f32 := broadcastInDim S30x3 ![] bcast_S_S30x3 main_cst_0
  let main_v6 : IVec S30x3 1 := cmpf .olt main_v4 main_v5
  let main_c_1 : IVec S_ 1 := constantI S_ 1 1#1
  let main_v7 : IVec S_ 1 := (fun x v => Host.reduce IntOp.andi x v reducesTo_S30x3_S_d0_1 h_S_) main_v6 main_c_1
  let main_v8 : IVec S_ 1 := andi main_v3 main_v7
  main_v8
-- ==== Kernel.lean ====
abbrev S3x1024x2048 : Shape := ⟨3, ![3, 1024, 2048]⟩
abbrev S30x3 : Shape := ⟨2, ![30, 3]⟩
abbrev S2097152x3 : Shape := ⟨2, ![2097152, 3]⟩
abbrev S3x2097152 : Shape := ⟨2, ![3, 2097152]⟩
abbrev S3x30 : Shape := ⟨2, ![3, 30]⟩
abbrev S64x1x128 : Shape := ⟨3, ![64, 1, 128]⟩
abbrev S3x32768 : Shape := ⟨2, ![3, 32768]⟩
abbrev S1x1x128 : Shape := ⟨3, ![1, 1, 128]⟩
abbrev S3x1 : Shape := ⟨2, ![3, 1]⟩
abbrev S32768 : Shape := ⟨1, ![32768]⟩
abbrev S1x32768 : Shape := ⟨2, ![1, 32768]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S3x1024x2048, .f32⟩
  | .hbm, ⟨1, _⟩ => ⟨S30x3, .f32⟩
  | .hbm, ⟨2, _⟩ => ⟨S2097152x3, .f32⟩
  | .hbm, ⟨3, _⟩ => ⟨S3x2097152, .f32⟩
  | .hbm, ⟨4, _⟩ => ⟨S3x30, .f32⟩
  | .hbm, ⟨5, _⟩ => ⟨S64x1x128, .f32⟩
  | .hbm, ⟨6, _⟩ => ⟨S64x1x1, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S3x32768, .f32⟩
  | .local _ .vmem, ⟨1, _⟩ => ⟨S3x32768, .f32⟩
  | .local _ .vmem, ⟨2, _⟩ => ⟨S3x30, .f32⟩
  | .local _ .vmem, ⟨3, _⟩ => ⟨S1x1x128, .f32⟩
  | .local _ .vmem, ⟨4, _⟩ => ⟨S1x1x128, .f32⟩
  | _, _ => ⟨S3x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S3x1024x2048_S2097152x3 : S3x1024x2048.ShapeCasts S2097152x3
  transposes_S2097152x3_S3x2097152_1_0 : S2097152x3.Transposes [1, 0] S3x2097152
  transposes_S30x3_S3x30_1_0 : S30x3.Transposes [1, 0] S3x30
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S3x30_S3x1_0_0 : ∀ a, (![0, 0] : Fin 2 → Nat) a + S3x1.size a ≤ S3x30.size a
  h_S3x1 : 0 < S3x1.numel
  shapeCasts_S3x1_S3x1 : S3x1.ShapeCasts S3x1
  broadcasts_S3x1_S3x32768 : S3x1.Broadcasts S3x32768
  reduces_S3x32768_S32768 : S3x32768.Reduces [0] S32768
  shapeCasts_S32768_S1x32768 : S32768.ShapeCasts S1x32768
  inb_S3x30_S3x1_0_1 : ∀ a, (![0, 1] : Fin 2 → Nat) a + S3x1.size a ≤ S3x30.size a
  inb_S3x30_S3x1_0_2 : ∀ a, (![0, 2] : Fin 2 → Nat) a + S3x1.size a ≤ S3x30.size a
  inb_S3x30_S3x1_0_3 : ∀ a, (![0, 3] : Fin 2 → Nat) a + S3x1.size a ≤ S3x30.size a
  inb_S3x30_S3x1_0_4 : ∀ a, (![0, 4] : Fin 2 → Nat) a + S3x1.size a ≤ S3x30.size a
  inb_S3x30_S3x1_0_5 : ∀ a, (![0, 5] : Fin 2 → Nat) a + S3x1.size a ≤ S3x30.size a
  inb_S3x30_S3x1_0_6 : ∀ a, (![0, 6] : Fin 2 → Nat) a + S3x1.size a ≤ S3x30.size a
  inb_S3x30_S3x1_0_7 : ∀ a, (![0, 7] : Fin 2 → Nat) a + S3x1.size a ≤ S3x30.size a
  inb_S3x30_S3x1_0_8 : ∀ a, (![0, 8] : Fin 2 → Nat) a + S3x1.size a ≤ S3x30.size a
  inb_S3x30_S3x1_0_9 : ∀ a, (![0, 9] : Fin 2 → Nat) a + S3x1.size a ≤ S3x30.size a
  inb_S3x30_S3x1_0_10 : ∀ a, (![0, 10] : Fin 2 → Nat) a + S3x1.size a ≤ S3x30.size a
  inb_S3x30_S3x1_0_11 : ∀ a, (![0, 11] : Fin 2 → Nat) a + S3x1.size a ≤ S3x30.size a
  inb_S3x30_S3x1_0_12 : ∀ a, (![0, 12] : Fin 2 → Nat) a + S3x1.size a ≤ S3x30.size a
  inb_S3x30_S3x1_0_13 : ∀ a, (![0, 13] : Fin 2 → Nat) a + S3x1.size a ≤ S3x30.size a
  inb_S3x30_S3x1_0_14 : ∀ a, (![0, 14] : Fin 2 → Nat) a + S3x1.size a ≤ S3x30.size a
  inb_S3x30_S3x1_0_15 : ∀ a, (![0, 15] : Fin 2 → Nat) a + S3x1.size a ≤ S3x30.size a
  inb_S3x30_S3x1_0_16 : ∀ a, (![0, 16] : Fin 2 → Nat) a + S3x1.size a ≤ S3x30.size a
  inb_S3x30_S3x1_0_17 : ∀ a, (![0, 17] : Fin 2 → Nat) a + S3x1.size a ≤ S3x30.size a
  inb_S3x30_S3x1_0_18 : ∀ a, (![0, 18] : Fin 2 → Nat) a + S3x1.size a ≤ S3x30.size a
  inb_S3x30_S3x1_0_19 : ∀ a, (![0, 19] : Fin 2 → Nat) a + S3x1.size a ≤ S3x30.size a
  inb_S3x30_S3x1_0_20 : ∀ a, (![0, 20] : Fin 2 → Nat) a + S3x1.size a ≤ S3x30.size a
  inb_S3x30_S3x1_0_21 : ∀ a, (![0, 21] : Fin 2 → Nat) a + S3x1.size a ≤ S3x30.size a
  inb_S3x30_S3x1_0_22 : ∀ a, (![0, 22] : Fin 2 → Nat) a + S3x1.size a ≤ S3x30.size a
  inb_S3x30_S3x1_0_23 : ∀ a, (![0, 23] : Fin 2 → Nat) a + S3x1.size a ≤ S3x30.size a
  inb_S3x30_S3x1_0_24 : ∀ a, (![0, 24] : Fin 2 → Nat) a + S3x1.size a ≤ S3x30.size a
  inb_S3x30_S3x1_0_25 : ∀ a, (![0, 25] : Fin 2 → Nat) a + S3x1.size a ≤ S3x30.size a
  inb_S3x30_S3x1_0_26 : ∀ a, (![0, 26] : Fin 2 → Nat) a + S3x1.size a ≤ S3x30.size a
  inb_S3x30_S3x1_0_27 : ∀ a, (![0, 27] : Fin 2 → Nat) a + S3x1.size a ≤ S3x30.size a
  inb_S3x30_S3x1_0_28 : ∀ a, (![0, 28] : Fin 2 → Nat) a + S3x1.size a ≤ S3x30.size a
  inb_S3x30_S3x1_0_29 : ∀ a, (![0, 29] : Fin 2 → Nat) a + S3x1.size a ≤ S3x30.size a
  reduces_S1x32768_S1 : S1x32768.Reduces [1] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x30.size a ≤ S3x30.size a
  hwx0_1 : ∀ i : grid0.Coords, EltTy.bits .f32 = 32 ∨ (Rect.block (s := S3x30) S3x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

abbrev win0_0 : Pipeline.Window sig grid0 :=
  Pipeline.Window.ofSpec (Memref.whole main_v1) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x1024x2048 : Shape := ⟨3, ![3, 1024, 2048]⟩
abbrev S30x3 : Shape := ⟨2, ![30, 3]⟩
abbrev S2097152x3 : Shape := ⟨2, ![2097152, 3]⟩
abbrev S2097152x1x3 : Shape := ⟨3, ![2097152, 1, 3]⟩
abbrev S1x30x3 : Shape := ⟨3, ![1, 30, 3]⟩
abbrev S2097152x30x3 : Shape := ⟨3, ![2097152, 30, 3]⟩
abbrev S_ : Shape := ⟨0, ![]⟩
abbrev S2097152x30 : Shape := ⟨2, ![2097152, 30]⟩
abbrev S2097152 : Shape := ⟨1, ![2097152]⟩

abbrev nBuf : Space → Nat
  | .hbm => 20
  | .vmem => 0
  | .smem => 0
  | _ => 0

abbrev bufTy : (tb : Table) → Fin (tcTables nBuf tb) → BufTy
  | .hbm, ⟨0, _⟩ => ⟨S3x1024x2048, .f32⟩
  | .hbm, ⟨1, _⟩ => ⟨S30x3, .f32⟩
  | .hbm, ⟨2, _⟩ => ⟨S2097152x3, .f32⟩
  | .hbm, ⟨3, _⟩ => ⟨S2097152x1x3, .f32⟩
  | .hbm, ⟨4, _⟩ => ⟨S1x30x3, .f32⟩
  | .hbm, ⟨5, _⟩ => ⟨S2097152x30x3, .f32⟩
  | .hbm, ⟨6, _⟩ => ⟨S2097152x30x3, .f32⟩
  | .hbm, ⟨7, _⟩ => ⟨S2097152x30x3, .f32⟩
  | .hbm, ⟨8, _⟩ => ⟨S2097152x30x3, .f32⟩
  | .hbm, ⟨9, _⟩ => ⟨S_, .f32⟩
  | .hbm, ⟨10, _⟩ => ⟨S2097152x30, .f32⟩
  | .hbm, ⟨11, _⟩ => ⟨S2097152x30, .f32⟩
  | .hbm, ⟨12, _⟩ => ⟨S_, .f32⟩
  | .hbm, ⟨13, _⟩ => ⟨S2097152, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S3x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S3x1024x2048_S2097152x3 : S3x1024x2048.ShapeCasts S2097152x3
  bcast_S2097152x3_S2097152x1x3_0_2 : S2097152x3.BroadcastsInDim S2097152x1x3 (![0, 2] : Fin 2 → Fin S2097152x1x3.rank)
  bcast_S30x3_S1x30x3_1_2 : S30x3.BroadcastsInDim S1x30x3 (![1, 2] : Fin 2 → Fin S1x30x3.rank)
  bcast_S2097152x1x3_S2097152x30x3_0_1_2 : S2097152x1x3.BroadcastsInDim S2097152x30x3 (![0, 1, 2] : Fin 3 → Fin S2097152x30x3.rank)
  bcast_S1x30x3_S2097152x30x3_0_1_2 : S1x30x3.BroadcastsInDim S2097152x30x3 (![0, 1, 2] : Fin 3 → Fin S2097152x30x3.rank)
  reducesTo_S2097152x30x3_S2097152x30_d2 : S2097152x30x3.ReducesTo [2] S2097152x30
  h_S_ : 0 < S_.numel
  reducesTo_S2097152x30_S2097152_d1 : S2097152x30.ReducesTo [1] S2097152
  reducesTo_S2097152_S_d0 : S2097152.ReducesTo [0] S_

variable [Facts₀]

class Facts : Prop extends Facts₀ where

variable [Facts]
-- ==== Proof.LibNestMin.lean ====
/-
  A minimum written as a left-nested chain of binary minima, and three facts about it.

  A body that keeps a running minimum over a short, fixed family of terms writes
  `min (… (min (min (f 0) (f 1)) (f 2)) …) (f n)`; a reduction over an axis is the fold of `min` from the top
  element.  The two are one value (`nest_min_eq_fold`); a monotone map may be applied before or after the
  nested minimum (`map_nest_min`), and the square root of the extended reals is monotone on the whole line
  (`sqrt_mono`: below zero it is `⊥`, the least element), so `√(min …) = min (√ …)` with no condition on the
  terms.  Last, a sum over `B · K` indices is the sum over `B` blocks of the sums over the `K` indices of each.
-/
import Idealize.ShloMosaic.PureOps.Ideal
import Mathlib.Algebra.BigOperators.Fin
import Mathlib.Data.Finset.Fold
import Mathlib.Data.Fintype.Basic

noncomputable section

namespace Idealize.ShloMosaic.NestMin

open Idealize.ShloMosaic

/-- `op (… (op (f 0) (f 1)) …) (f n)`: the `n + 1` terms of `f` combined from the left. -/
def nest {α : Type*} (op : α → α → α) : (n : ℕ) → (Fin (n + 1) → α) → α
  | 0, f => f 0
  | n + 1, f => op (nest op n fun i => f i.castSucc) (f (Fin.last (n + 1)))

theorem nest_zero {α : Type*} (op : α → α → α) (f : Fin 1 → α) : nest op 0 f = f 0 := rfl

theorem nest_succ {α : Type*} (op : α → α → α) (n : ℕ) (f : Fin (n + 2) → α) :
    nest op (n + 1) f = op (nest op n fun i => f i.castSucc) (f (Fin.last (n + 1))) := rfl

/-- Functions combined pointwise, read at a point: the values at that point combined. -/
theorem nest_apply {ι α : Type*} (op : α → α → α) (n : ℕ) (F : Fin (n + 1) → ι → α) (i : ι) :
    nest (fun a b : ι → α => fun j => op (a j) (b j)) n F i = nest op n fun k => F k i := by
  induction n with
  | zero => rfl
  | succ n ih =>
    rw [nest_succ, nest_succ]
    show op (nest (fun a b : ι → α => fun j => op (a j) (b j)) n (fun k => F k.castSucc) i) (F (Fin.last (n + 1)) i) = _
    rw [ih]

/-- A monotone map of a nested minimum is the nested minimum of the mapped terms. -/
theorem map_nest_min {α β : Type*} [LinearOrder α] [LinearOrder β] {g : α → β} (hg : Monotone g) (n : ℕ)
    (f : Fin (n + 1) → α) : g (nest min n f) = nest min n fun k => g (f k) := by
  induction n with
  | zero => rfl
  | succ n ih => rw [nest_succ, nest_succ, hg.map_min, ih]

/-- A nested minimum is the fold of `min` from the top element over all its terms. -/
theorem nest_min_eq_fold {α : Type*} [LinearOrder α] [OrderTop α] (n : ℕ) (f : Fin (n + 1) → α) :
    nest min n f = (Finset.univ : Finset (Fin (n + 1))).fold min ⊤ f := by
  induction n with
  | zero =>
    rw [nest_zero, Fin.univ_castSuccEmb, Finset.fold_cons, Finset.fold_map, Finset.univ_eq_empty,
      Finset.fold_empty, min_top_right]
    rfl
  | succ n ih =>
    rw [nest_succ, Fin.univ_castSuccEmb, Finset.fold_cons, Finset.fold_map, ih, min_comm]
    rfl

/-- The square root of the extended reals (`⊥` below zero, `√r` at a real `r ≥ 0`, `⊤` at `⊤`) is monotone. -/
theorem sqrt_mono : Monotone Ideal.sqrt := by
  intro x y hxy
  induction x using EReal.rec with
  | bot => exact bot_le
  | top =>
    have hy : y = ⊤ := top_le_iff.mp hxy
    subst hy
    exact le_rfl
  | coe r =>
    induction y using EReal.rec with
    | bot => exact absurd (le_bot_iff.mp hxy) (EReal.coe_ne_bot r)
    | top => exact le_top
    | coe s =>
      have hrs : r ≤ s := EReal.coe_le_coe_iff.mp hxy
      rw [Ideal.sqrt_coe, Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- The square root of a nested minimum is the nested minimum of the square roots. -/
theorem sqrt_nest_min (n : ℕ) (f : Fin (n + 1) → EReal) :
    Ideal.sqrt (nest min n f) = nest min n fun k => Ideal.sqrt (f k) :=
  map_nest_min sqrt_mono n f

/-- A sum over `N = B · K` indices, cut into `B` consecutive blocks of `K`. -/
theorem sum_blocks {M : Type*} [AddCommMonoid M] (B K N : ℕ) (h : B * K = N) (f : Fin N → M) :
    ∑ n : Fin N, f n = ∑ t : Fin B, ∑ q : Fin K, f ⟨t.val * K + q.val, by
      rw [← h]
      exact Nat.lt_of_lt_of_le (Nat.add_lt_add_left q.isLt _)
        (by rw [← Nat.succ_mul]; exact Nat.mul_le_mul_right _ t.isLt)⟩ := by
  subst h
  rw [← finProdFinEquiv.sum_comp f, Fintype.sum_prod_type]
  refine Finset.sum_congr rfl fun t _ => Finset.sum_congr rfl fun q _ => congrArg f (Fin.ext ?_)
  show q.val + K * t.val = t.val * K + q.val
  rw [Nat.mul_comm, Nat.add_comm]

end Idealize.ShloMosaic.NestMin

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibColSum.lean ====
/-
  Three readings at an index, beside the keep-dims ones.

  A sum over the FIRST axis of an `[a, b]` array (the sublanes) into the zero accumulator is, at column `c`, the
  sum of that column's entries; a `[1, 1, 1]` scalar broadcast over `b` lanes reads the scalar everywhere; and a
  sum over the index set of a rank-1 shape is the sum over its one coordinate.
-/
import Idealize.ShloMosaic.Lib.Pipeline.Value
import Idealize.ShloMosaic.Lib.ValueIdx
import Idealize.ShloMosaic.PureOps.Ideal.Laws

noncomputable section

namespace Idealize.ShloMosaic.ColSum

open Idealize.ShloMosaic Idealize.ShloMosaic.ValueIdx

variable {α : Type}

/-- The sum over the rows of an `[a, b]` array into the zero accumulator, at column `c`, is the sum of the
    column's entries. -/
theorem colSum_apply {a b : ℕ} (v : FVec Ideal ⟨2, ![a, b]⟩ .f32) (h : (⟨2, ![a, b]⟩ : Shape).Reduces [0] ⟨1, ![b]⟩)
    (hacc : (0x00000000#32 : BitVec 32) = 0x00000000#32) (c : Fin b) :
    multiReduction .add [0] ⟨1, ![b]⟩ v 0x00000000#32 h (.inl rfl) hacc (ix1 c) = ∑ k : Fin a, v (ix2 k c) :=
  (Ideal.multiReduction_add_single v 0x00000000#32 h (.inl rfl) hacc (ix1 c)).trans
    (Finset.sum_congr rfl fun k _ => congrArg v (funext fun ax => Fin.ext (by
      match ax with
      | ⟨0, _⟩ => rfl
      | ⟨1, _⟩ => rfl)))

/-- A `[1, 1, 1]` scalar broadcast over `b` lanes reads, at every index, the scalar. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) :=
  ((idxEquiv1 (n := n)).symm.sum_comp f).symm

end Idealize.ShloMosaic.ColSum

end
-- ==== Proof.Body.lean ====
/-
  The kernel body at one grid point, read at an index.

  The body loads its `[3, 32768]` pixel block `x0` (channel by lane) and, one after the other, the thirty `[3, 1]`
  columns of the `[3, 30]` colour block `x1`.  For each colour it forms the row of squared distances — subtract the
  colour from every lane, square, add over the three channels — and keeps the running minimum of those rows; then one
  square root, the sum over the `32768` lanes, and that one number written to every lane of the `[1, 1, 128]` output
  block.  So at every index of the output block the body leaves
  `∑_q √(min_m ∑_k (x0 (k, q) − x1 (k, m))²)`, the minimum nested from the left over the thirty colours.
-/
import proofs.«138692_j2422361555121_2_alg».proof.Proof.Gen.KernelIdeal.Frame
import proofs.«138692_j2422361555121_2_alg».proof.Proof.LibNestMin
import proofs.«138692_j2422361555121_2_alg».proof.Proof.LibKeepdims
import proofs.«138692_j2422361555121_2_alg».proof.Proof.LibColSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx
open Idealize.ShloMosaic.NestMin Idealize.ShloMosaic.Keepdims Idealize.ShloMosaic.ColSum

variable {F : FTy → Type} [FloatOps F]

/-- Column `m` of the colour block lies inside it. -/
theorem col_inb (m : Fin 30) : ∀ a, (![0, m.val] : Fin 2 → Nat) a + S3x1.size a ≤ S3x30.size a := by
  intro a
  have hm := m.isLt
  match a with
  | ⟨0, _⟩ => show 0 + 3 ≤ 3; omega
  | ⟨1, _⟩ => show m.val + 1 ≤ 30; omega

/-- Column `m` of the colour block: all three channels, lane `m`. -/
abbrev colRect (m : Fin 30) : Rect S3x30 := Rect.unit (s := S3x30) ![0, m.val] S3x1.size (col_inb m)

/-- The row of squared distances of the lanes of `v1` from the colour column `cv`. -/
def sqRow (v1 : FVec F S3x32768 .f32) (cv : Vec F S3x1 .f32) : FVec F S1x32768 .f32 :=
  shapeCast S1x32768
    (multiReduction .add [0] S32768
      (mulf (subf v1 (broadcastTo S3x32768 (shapeCast S3x1 cv shapeCasts_S3x1_S3x1) broadcasts_S3x1_S3x32768))
        (subf v1 (broadcastTo S3x32768 (shapeCast S3x1 cv shapeCasts_S3x1_S3x1) broadcasts_S3x1_S3x32768)))
      0x00000000#32 reduces_S3x32768_S32768 (.inl rfl) rfl)
    shapeCasts_S32768_S1x32768

/-- The end of the body: the root of a row, its sum over the lanes, and that number on every lane of the output block. -/
def rootSum (v : FVec F S1x32768 .f32) : FVec F S1x1x128 .f32 :=
  broadcastTo S1x1x128
    (shapeCast S1x1x1
      (shapeCast S1x1 (multiReduction .add [1] S1 (sqrt v) 0x00000000#32 reduces_S1x32768_S1 (.inl rfl) rfl) shapeCasts_S1_S1x1)
      shapeCasts_S1x1_S1x1x1)
    broadcasts_S1x1x1_S1x1x128

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the output block is the root-and-sum of the nested minimum of the thirty rows. -/
theorem out_eq (x0 : Vec F S3x32768 .f32) (x1 : Vec F S3x30 .f32) :
    out0_2 x0 x1
      = rootSum (nest minimumf 29 fun m => sqRow (shapeCast S3x32768 x0 shapeCasts_S3x32768_S3x32768) (View.ld x1 (colRect m))) := by
  unfold out0_2
  rw [View.canon_unit_zero zeros3]
  simp only [View.ld_unit_zero (S := S3x32768) zeros2]
  rfl

/-! ## Read at an index, on the extended reals -/

/-- Column `m` of the colour block, at channel `k`, is the block at `(k, m)`. -/
theorem ld_col (x1 : Vec F S3x30 .f32) (m : Fin 30) (k : Fin 3) :
    View.ld x1 (colRect m) (ix2 k (0 : Fin 1)) = x1 (ix2 k m) :=
  congrArg x1 (funext fun a => Fin.ext (by
    match a with
    | ⟨0, _⟩ => show 0 + 1 * k.val = k.val; omega
    | ⟨1, _⟩ => show m.val + 1 * 0 = m.val; omega))

/-- A row of squared distances at lane `q`: the sum over the channels of the squared difference. -/
theorem sqRow_apply (v1 : FVec Ideal S3x32768 .f32) (cv : Vec Ideal S3x1 .f32) (u : Fin 1) (q : Fin 32768) :
    sqRow v1 cv (ix2 u q)
      = ∑ k : Fin 3, (v1 (ix2 k q) - cv (ix2 k (0 : Fin 1))) * (v1 (ix2 k q) - cv (ix2 k (0 : Fin 1))) := by
  unfold sqRow
  rw [shapeCast_a_1a_apply, colSum_apply]
  refine Finset.sum_congr rfl fun k _ => ?_
  rw [mulf_apply, subf_apply, broadcastTo_a1_ab_apply, shapeCast_self]

/-- The end of the body at any index of the output block: the sum over the lanes of the roots. -/
theorem rootSum_apply (v : FVec Ideal S1x32768 .f32) (y : S1x1x128.Idx) :
    rootSum v y = ∑ q : Fin 32768, Ideal.sqrt (v (ix2 (0 : Fin 1) q)) := by
  unfold rootSum
  rw [broadcastTo_111_11b_apply, shapeCast_ab_1ab_apply, shapeCast_a_a1_apply, rowSum_apply]
  rfl

/-- A nested minimum of rows, at an index, is the nested minimum of the entries. -/
theorem nest_minimumf_apply {s : Shape} (n : ℕ) (R : Fin (n + 1) → FVec Ideal s .f32) (i : s.Idx) :
    nest minimumf n R i = nest min n fun k => R k i :=
  nest_apply (fun a b : EReal => min a b) n R i

/-- THE BODY AT AN INDEX: at every index of the output block, the sum over the lanes of the root of the nested minimum
    over the colours of the squared distance of the lane's pixel from the colour. -/
theorem out_apply (x0 : Vec Ideal S3x32768 .f32) (x1 : Vec Ideal S3x30 .f32) (y : S1x1x128.Idx) :
    out0_2 x0 x1 y
      = ∑ q : Fin 32768, Ideal.sqrt (nest min 29 fun m =>
          ∑ k : Fin 3, (x0 (ix2 k q) - x1 (ix2 k m)) * (x0 (ix2 k q) - x1 (ix2 k m))) := by
  rw [out_eq, rootSum_apply]
  refine Finset.sum_congr rfl fun q _ => congrArg Ideal.sqrt ?_
  rw [nest_minimumf_apply]
  refine congrArg (nest min 29) (funext fun m => ?_)
  rw [sqRow_apply, shapeCast_self]
  refine Finset.sum_congr rfl fun k _ => ?_
  rw [ld_col x1 m k]

end Cert.KernelIdeal.Body

end
-- ==== Proof.Spec.lean ====
/-
  The quantity both programs compute, and the law that joins their two arrangements.

  `P` is the pixel table, `2097152` rows of three channels; `C` the colour table, thirty rows of three channels.
  For pixel `n` and colour `m`, `sqDist P C n m` is the squared distance `∑ₖ (P n k − C m k)²`.

  One program walks the pixels in `64` tiles of `32768`: in a tile it takes, pixel by pixel, the minimum over the
  thirty colours of the SQUARED distance — a running minimum, nested from the left —, then one square root, and adds
  the roots up; the tiles' sums are added afterwards (`tiledTotal`).  The other takes the root of every squared
  distance first, the minimum over the colours as a fold of `min` from `⊤`, and one sum over all pixels (`total`).

  They agree on every extended real, with no finiteness asked: the root is monotone, so it passes through the
  minimum; a nested minimum is the fold; and a sum over `64 · 32768` indices is the sum of its `64` blocks' sums.
-/
import proofs.«138692_j2422361555121_2_alg».proof.Proof.LibNestMin
import Idealize.ShloMosaic.Lib.ValueIdx

noncomputable section

namespace Cert.NearestColour

open Idealize.ShloMosaic Idealize.ShloMosaic.ValueIdx Idealize.ShloMosaic.NestMin

/-- The squared distance of pixel `n` from colour `m`: the sum over the three channels of the squared difference. -/
def sqDist (P : (⟨2, ![2097152, 3]⟩ : Shape).Idx → EReal) (C : (⟨2, ![30, 3]⟩ : Shape).Idx → EReal)
    (n : Fin 2097152) (m : Fin 30) : EReal :=
  ∑ k : Fin 3, (P (ix2 n k) - C (ix2 m k)) * (P (ix2 n k) - C (ix2 m k))

/-- Pixel `q` of tile `t`. -/
def pixelOf (t : Fin 64) (q : Fin 32768) : Fin 2097152 :=
  ⟨t.val * 32768 + q.val, by have := t.isLt; have := q.isLt; omega⟩

/-- One tile's sum: per pixel the root of the nested minimum of the squared distances, added over the tile. -/
def tileSum (P : (⟨2, ![2097152, 3]⟩ : Shape).Idx → EReal) (C : (⟨2, ![30, 3]⟩ : Shape).Idx → EReal) (t : Fin 64) : EReal :=
  ∑ q : Fin 32768, Ideal.sqrt (nest min 29 fun m => sqDist P C (pixelOf t q) m)

/-- The tiles' sums added. -/
def tiledTotal (P : (⟨2, ![2097152, 3]⟩ : Shape).Idx → EReal) (C : (⟨2, ![30, 3]⟩ : Shape).Idx → EReal) : EReal :=
  ∑ t : Fin 64, tileSum P C t

/-- The distance of pixel `n` from its nearest colour: the fold of `min` from `⊤` over the colours of the distance. -/
def nearest (P : (⟨2, ![2097152, 3]⟩ : Shape).Idx → EReal) (C : (⟨2, ![30, 3]⟩ : Shape).Idx → EReal) (n : Fin 2097152) : EReal :=
  (Finset.univ : Finset (Fin 30)).fold min ⊤ fun m => Ideal.sqrt (sqDist P C n m)

/-- All pixels' nearest distances added. -/
def total (P : (⟨2, ![2097152, 3]⟩ : Shape).Idx → EReal) (C : (⟨2, ![30, 3]⟩ : Shape).Idx → EReal) : EReal :=
  ∑ n : Fin 2097152, nearest P C n

/-- The root of the nested minimum of the squared distances is the nearest distance. -/
theorem sqrt_nest_eq_nearest (P : (⟨2, ![2097152, 3]⟩ : Shape).Idx → EReal) (C : (⟨2, ![30, 3]⟩ : Shape).Idx → EReal)
    (n : Fin 2097152) : Ideal.sqrt (nest min 29 fun m => sqDist P C n m) = nearest P C n := by
  rw [sqrt_nest_min, nest_min_eq_fold]
  rfl

/-- The two arrangements are one number. -/
theorem tiledTotal_eq_total (P : (⟨2, ![2097152, 3]⟩ : Shape).Idx → EReal) (C : (⟨2, ![30, 3]⟩ : Shape).Idx → EReal) :
    tiledTotal P C = total P C := by
  unfold tiledTotal total tileSum
  rw [sum_blocks 64 32768 2097152 (by norm_num) fun n => nearest P C n]
  exact Finset.sum_congr rfl fun t _ => Finset.sum_congr rfl fun q _ => sqrt_nest_eq_nearest P C (pixelOf t q)

end Cert.NearestColour

end
-- ==== Proof.Blocks.lean ====
/-
  From the blocks to the array the region leaves.

  Grid point `t` of `64` stages lanes `32768·t … 32768·t + 32767` of the channel-major pixel array (all three
  channels), the whole colour array, and writes row `t` of the `[64, 1, 128]` result.  The channel-major pixel array
  is the transpose of the pixel table and the staged colour array the transpose of the colour table, both made by the
  host before the region; so lane `q` of tile `t`, channel `k`, is the table's pixel `32768·t + q` at channel `k`.
  With the body read at an index, row `t` of the result holds, on every lane, tile `t`'s sum; the `64` rows tile the
  result, so the array after the region is that function of the two tables.
-/
import proofs.«138692_j2422361555121_2_alg».proof.Proof.Body
import proofs.«138692_j2422361555121_2_alg».proof.Proof.Spec
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.NestMin Idealize.ShloMosaic.StableHlo Cert.NearestColour
open Idealize.ShloMosaic.Pipeline (Dat)

variable (m : (ℓ : Loc nD τ sig) → Buf (Elt Ideal) ℓ)

/-- The pixel table: the first argument laid out as `2097152` rows of three channels. -/
abbrev pixels (c : Dev nD) : S2097152x3.Idx → EReal :=
  shapeCast S2097152x3 (m ((c : Thread nD τ).loc main_arg0)) shapeCasts_S3x1024x2048_S2097152x3

/-- The colour table: the second argument. -/
abbrev colours (c : Dev nD) : S30x3.Idx → EReal := m ((c : Thread nD τ).loc main_arg1)

/-- The region finds the channel-major pixel array: the transpose of the pixel table. -/
theorem V_pixels (c : Dev nD) :
    (V m c main_v1 : S3x2097152.Idx → EReal) = transpose S3x2097152 [1, 0] (pixels m c) transposes_S2097152x3_S3x2097152_1_0 := by
  show StableHlo.after hostOps0 (fun b => m (c, b)) (Proc.devRef .tc main_v1) = _
  after_results <;> rfl

/-- The region finds the channel-major colour array: the transpose of the colour table. -/
theorem V_colours (c : Dev nD) :
    (V m c main_v2 : S3x30.Idx → EReal) = transpose S3x30 [1, 0] (colours m c) transposes_S30x3_S3x30_1_0 := by
  show StableHlo.after hostOps0 (fun b => m (c, b)) (Proc.devRef .tc main_v2) = _
  after_results <;> rfl

/-- The printed index maps over the grid: the pixel window moves along the lanes with the point, the colour window
    stays, the result window moves down the rows. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- A grid point as a tile number. -/
abbrev tileOf (t : Fin cfg0.N) : Fin 64 := Fin.cast N_0 t

/-- Lane `q`, channel `k`, of the pixel block at point `t` is pixel `32768·t + q` of the table at channel `k`. -/
theorem pixel_block (c : Dev nD) (t : Fin cfg0.N) (k : Fin 3) (q : Fin 32768) :
    iblk m c 0 t (ix2 k q) = pixels m c (ix2 (pixelOf (tileOf t) q) k) := by
  obtain ⟨e0, e1, -⟩ := idx_facts t
  show (V m c main_v1 : S3x2097152.Idx → EReal) (((cfg0.win 0).blk t).view.emb (ix2 k q)) = _
  rw [V_pixels]
  refine transpose_apply _ _ _ _ _ fun b => ?_
  match b with
  | ⟨0, _⟩ => show k.val = win0_0.index t (0 : Fin 2) * 3 + 1 * k.val; omega
  | ⟨1, _⟩ => show t.val * 32768 + q.val = win0_0.index t (1 : Fin 2) * 32768 + 1 * q.val; omega

/-- Lane `mm`, channel `k`, of the colour block at any point is colour `mm` of the table at channel `k`. -/
theorem colour_block (c : Dev nD) (t : Fin cfg0.N) (k : Fin 3) (mm : Fin 30) :
    iblk m c 1 t (ix2 k mm) = colours m c (ix2 mm k) := by
  obtain ⟨-, -, e2, e3, -⟩ := idx_facts t
  show (V m c main_v2 : S3x30.Idx → EReal) (((cfg0.win 1).blk t).view.emb (ix2 k mm)) = _
  rw [V_colours]
  refine transpose_apply _ _ _ _ _ fun b => ?_
  match b with
  | ⟨0, _⟩ => show k.val = win0_1.index t (0 : Fin 2) * 3 + 1 * k.val; omega
  | ⟨1, _⟩ => show mm.val = win0_1.index t (1 : Fin 2) * 30 + 1 * mm.val; omega

/-- What the result array holds after the region: on every lane of row `t`, tile `t`'s sum. -/
def tiles (c : Dev nD) : S64x1x128.Idx → EReal := fun i => tileSum (pixels m c) (colours m c) (i 0)

theorem tiles_apply (c : Dev nD) (i : S64x1x128.Idx) : tiles m c i = tileSum (pixels m c) (colours m c) (i 0) := rfl

/-- A function on the result array read through point `t`'s block, at a block index, is the function at the array
    index under it. -/
theorem read_blk (G : S64x1x128.Idx → EReal) (t : Fin cfg0.N) (j : ((cfg0.win 2).xblock (cfg0.grid.coords t)).Idx) :
    ((cfg0.win 2).blk t).view.read (Elt Ideal) G j = G (((cfg0.win 2).blk t).view.emb j) := rfl

/-- The body's block at point `t` holds tile `t`'s sum at every index. -/
theorem body_tile (c : Dev nD) (t : Fin cfg0.N) (j : S1x1x128.Idx) :
    out0_2 (iblk m c 0 t) (iblk m c 1 t) j = tileSum (pixels m c) (colours m c) (tileOf t) := by
  refine (Body.out_apply (iblk m c 0 t) (iblk m c 1 t) j).trans ?_
  unfold tileSum
  refine Finset.sum_congr rfl fun q _ => congrArg Ideal.sqrt (congrArg (nest min 29) (funext fun mm => ?_))
  unfold sqDist
  refine Finset.sum_congr rfl fun k _ => ?_
  rw [pixel_block, colour_block]

/-- WHAT POINT `t` WRITES BACK is block `t` of `tiles`. -/
theorem flushed_eq (c : Dev nD) (t : Fin cfg0.N) :
    (dats m 0 c).flushed 2 t = ((cfg0.win 2).blk t).view.read (Elt Ideal) (tiles m c) := by
  show (cfg0.win 2).cut (grid0.coords t) ((dats m 0 c).after 2 t) = _
  rw [after0_2]
  funext j
  obtain ⟨-, -, -, -, e4, -⟩ := idx_facts t
  refine (body_tile m c t _).trans ?_
  rw [read_blk, tiles_apply]
  refine congrArg (tileSum (pixels m c) (colours m c)) (Fin.ext ?_)
  have hj : (j 0).val < 1 := (j 0).isLt
  show t.val = win0_2.index t (0 : Fin 3) * 1 + 1 * (j 0).val
  omega

/-- An index of the result is in point `t`'s block iff each coordinate is in the block's range on its axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v3).slice (win0_2.rect t)).set ↔ _
  rw [View.set_slice_whole, Rect.mem_set_unit]
  exact Iff.rfl

/-- The rows tile the result: index `i` is in the block of the point numbered by its row. -/
theorem cover (i : S64x1x128.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 128 := (i 2).isLt
  refine ⟨Fin.cast N_0.symm ⟨(i 0).val, h0⟩, flush0_2 _, ?_⟩
  rw [mem_blk]
  obtain ⟨-, -, -, -, e4, e5, e6⟩ := idx_facts (Fin.cast N_0.symm ⟨(i 0).val, h0⟩)
  have e4' : win0_2.index (Fin.cast N_0.symm ⟨(i 0).val, h0⟩) (0 : Fin 3) = (i 0).val := e4
  intro a
  match a with
  | ⟨0, _⟩ =>
    show win0_2.index (Fin.cast N_0.symm ⟨(i 0).val, h0⟩) (0 : Fin 3) * 1 ≤ (i 0).val
      ∧ (i 0).val < win0_2.index (Fin.cast N_0.symm ⟨(i 0).val, h0⟩) (0 : Fin 3) * 1 + 1
    omega
  | ⟨1, _⟩ =>
    show win0_2.index (Fin.cast N_0.symm ⟨(i 0).val, h0⟩) (1 : Fin 3) * 1 ≤ (i 1).val
      ∧ (i 1).val < win0_2.index (Fin.cast N_0.symm ⟨(i 0).val, h0⟩) (1 : Fin 3) * 1 + 1
    omega
  | ⟨2, _⟩ =>
    show win0_2.index (Fin.cast N_0.symm ⟨(i 0).val, h0⟩) (2 : Fin 3) * 128 ≤ (i 2).val
      ∧ (i 2).val < win0_2.index (Fin.cast N_0.symm ⟨(i 0).val, h0⟩) (2 : Fin 3) * 128 + 128
    omega

/-- THE RESULT ARRAY after the region: `tiles`. -/
theorem final (c : Dev nD) : (dats m 0 c).arrAt 2 cfg0.N = tiles m c :=
  (dats m 0 c).arrAt_eq_of_cover 2 (tiles m c) (fun t _ => flushed_eq m c t) (cover)

end Cert.KernelIdeal.Blocks

end
-- ==== Proof.Tail.lean ====
/-
  The host lines after the region, and the kernel program's result.

  After the region the host takes lane `0` of every row of the `[64, 1, 128]` array, lays the `64` numbers out as a
  vector, adds them from zero, divides by the pixel count and multiplies by one.  Row `t` holds tile `t`'s sum on every
  lane, so the result, read at its one index, is `((0 + tiledTotal P C) / 2097152) · 1`.
-/
import proofs.«138692_j2422361555121_2_alg».proof.Proof.Blocks
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Idealize.ShloMosaic.ColSum Idealize.ShloMosaic.StableHlo Cert.NearestColour
open Cert.KernelIdeal.Blocks

variable (m : (ℓ : Loc nD τ sig) → Buf (Elt Ideal) ℓ)

/-- The host lines after the region, as one function of the array the region leaves. -/
def tailOf (A : S64x1x128.Idx → EReal) : S_.Idx → EReal :=
  mulf (F := Ideal)
    (Host.divf (F := Ideal)
      (Host.reduceAdd (F := Ideal)
        (shapeCast S64 (extractStridedSlice S64x1x1 ![0, 0, 0] A slices_S64x1x128_S64x1x1_0_0_0) shapeCasts_S64x1x1_S64)
        (constant (F := Ideal) S_ .f32 0x00000000#32) reducesTo_S64_S_d0 h_S_)
      (constant (F := Ideal) S_ .f32 0x4A000000#32))
    (constant (F := Ideal) S_ .f32 0x3F800000#32)

/-- The result buffer after the whole program is the host lines' function of the array the region leaves. -/
theorem result_eq (c : Dev nD) :
    (Pipeline.afterTail₀ cfgs (dats m) 0 (V0 m) [hostOps1] c main_v8 : S_.Idx → EReal) = tailOf (tiles m c) := by
  unfold Pipeline.afterTail₀
  show StableHlo.after hostOps1 _ (Proc.devRef .tc main_v8) = _
  after_results
  have hA : Pipeline.withArrays (cfgs 0).spec c (V0 m c) (fun w => (dats m 0 c).arrAt w (cfgs 0).N)
      (Proc.tc.devRef main_v3) = tiles m c :=
    (Pipeline.withArrays_arr spec0 launch0.win.arr_inj c _ _ 2).trans (final m c)
  rw [hA]
  rfl

/-! ## The host lines read at an index -/

/-- Lane `0` of row `t`, as the host picks it out: the slice `[0:64, 0:1, 0:1]` laid out as a vector. -/
theorem lane0_apply (A : S64x1x128.Idx → EReal) (t : Fin 64) :
    shapeCast S64 (extractStridedSlice S64x1x1 ![0, 0, 0] A slices_S64x1x128_S64x1x1_0_0_0) shapeCasts_S64x1x1_S64 (ix1 t)
      = A (ix3 t (0 : Fin 1) (0 : Fin 128)) := by
  refine (shapeCast_apply _ shapeCasts_S64x1x1_S64 (ix1 t) (ix3 t (0 : Fin 1) (0 : Fin 1)) ?_).trans ?_
  · rw [Shape.rowMajor_val_three, Shape.rowMajor_val_one]
    show (t.val * 1 + 0) * 1 + 0 = t.val
    omega
  · refine extractStridedSlice_apply _ A slices_S64x1x128_S64x1x1_0_0_0 _ (ix3 t (0 : Fin 1) (0 : Fin 128)) fun a => ?_
    match a with
    | ⟨0, _⟩ => show t.val = 0 + t.val; omega
    | ⟨1, _⟩ => rfl
    | ⟨2, _⟩ => rfl

/-- The host's sum of a `64`-vector from zero: zero plus the sum of its entries. -/
theorem sum64_apply (x : S64.Idx → EReal) (i : S_.Idx) :
    Host.reduceAdd (F := Ideal) x (constant (F := Ideal) S_ .f32 0x00000000#32) reducesTo_S64_S_d0 h_S_ i
      = Ideal.ofBits .f32 0x00000000#32 + ∑ t : Fin 64, x (ix1 t) := by
  simp only [Host.reduceAdd, Ideal.hostReduceAdd_def]
  rw [Ideal.hostReduceAdd_total reducesTo_S64_S_d0 (fun b => b.elim0) x _ i, sum_idx1]
  rfl

/-- The host lines at their one index: zero plus the sum over the rows of lane `0`, divided, times one. -/
theorem tailOf_apply (A : S64x1x128.Idx → EReal) (i : S_.Idx) :
    tailOf A i
      = Ideal.div (Ideal.ofBits .f32 0x00000000#32 + ∑ t : Fin 64, A (ix3 t (0 : Fin 1) (0 : Fin 128)))
          (Ideal.ofBits .f32 0x4A000000#32) * Ideal.ofBits .f32 0x3F800000#32 := by
  show FloatOps.mulf (FloatOps.hostDivf (Host.reduceAdd (F := Ideal) _ _ reducesTo_S64_S_d0 h_S_ i)
    (Ideal.ofBits .f32 0x4A000000#32)) (Ideal.ofBits .f32 0x3F800000#32) = _
  rw [sum64_apply, Ideal.mulf_def, Ideal.hostDivf_def]
  simp only [lane0_apply]

/-- THE KERNEL PROGRAM'S RESULT: the quotient by the pixel count of zero plus the tiles' sums added, times one. -/
theorem kernel_result (c : Dev nD) (i : S_.Idx) :
    tailOf (tiles m c) i
      = Ideal.div (Ideal.ofBits .f32 0x00000000#32 + tiledTotal (pixels m c) (colours m c))
          (Ideal.ofBits .f32 0x4A000000#32) * Ideal.ofBits .f32 0x3F800000#32 := by
  rw [tailOf_apply]
  unfold tiledTotal
  simp only [tiles_apply]

end Cert.KernelIdeal.Tail

end
-- ==== Proof.KernelRun.lean ====
/-
  The kernel program's run with its result named.

  Every weakly fair execution of the program terminates; its result buffer ends at the host lines' function of the
  array the region leaves — row `t` tile `t`'s sum —, and the two arguments end as they were launched.
-/
import proofs.«138692_j2422361555121_2_alg».proof.Proof.Tail

noncomputable section

namespace Cert.KernelIdeal.Tail

open Cert.KernelIdeal Cert.KernelIdeal.Gen Idealize.ShloMosaic Idealize.ShloMosaic.TcCoe Idealize.SL.Sem
open Cert.KernelIdeal.Blocks

/-- The frame run re-posted: the result buffer at the tail of `tiles`, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = tailOf (tiles m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.LibHostRowMin.lean ====
/-
  The host's minimum over the last axis of an `[a, b]` array, read at a row.

  A one-operand reduce with a `minimum` body over axis 1, from an initial scalar, is at row `r` the fold of `min`
  from the initial value over the row's entries — on the extended reals, where `minimumf` is `min`.
-/
import Idealize.ShloMosaic.Lib.ValueIdx
import Idealize.ShloMosaic.PureOps.Ideal.Laws

noncomputable section

namespace Idealize.ShloMosaic.HostRowMin

open Idealize.ShloMosaic Idealize.ShloMosaic.ValueIdx

/-- The host's reduce-minimum over the last axis of an `[a, b]` array from `init`, at row `r`: the fold of `min`
    from the initial value over the row. -/
theorem hostRowMin_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) fun k => x (ix2 r k) := by
  rw [Host.reduce_eq_fold_single (FloatOps.minimumf (F := Ideal) (φ := .f32)) x init h' h hu (ix1 r)]
  show (Finset.univ : Finset (Fin b)).fold min (init (Shape.Idx.first hu)) (x ∘ h.lift (ix1 r)) = _
  refine Finset.fold_congr fun k _ => ?_
  exact congrArg x (funext fun ax => Fin.ext (by
    match ax with
    | ⟨0, _⟩ => rfl
    | ⟨1, _⟩ => rfl))

end Idealize.ShloMosaic.HostRowMin

end
-- ==== Proof.RefValue.lean ====
/-
  The reference's result on the extended reals.

  The reference lays the first argument out as the pixel table, subtracts every colour from every pixel, squares, adds
  over the three channels, takes the root, then the minimum over the thirty colours (a fold of `min` from `+∞`), adds
  over all pixels from zero, divides by the pixel count and multiplies by one.  Read at its one index this is
  `1 · ((0 + total P C) / 2097152)` with `total` the sum over the pixels of the distance to the nearest colour.
-/
import proofs.«138692_j2422361555121_2_alg».proof.Proof.Gen.ReferenceIdeal.Read
import proofs.«138692_j2422361555121_2_alg».proof.Proof.Spec
import proofs.«138692_j2422361555121_2_alg».proof.Proof.LibColSum
import proofs.«138692_j2422361555121_2_alg».proof.Proof.LibHostRowMin
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Idealize.ShloMosaic.ColSum Idealize.ShloMosaic.HostRowMin Cert.NearestColour

/-- The word `0x7F800000` is `+∞`. -/
theorem ofBits_inf : Ideal.ofBits .f32 0x7F800000#32 = ⊤ := by simp [Ideal.ofBits, Ideal.ieee]

/-- The root of the channel sum at pixel `n` and colour `mm` is the distance of the pixel from the colour. -/
theorem dist_apply (x0 : (⟨S3x1024x2048, .f32⟩ : BufTy).Contents (Elt Ideal)) (x1 : (⟨S30x3, .f32⟩ : BufTy).Contents (Elt Ideal))
    (n : Fin 2097152) (mm : Fin 30) :
    val_main_v8 (F := Ideal) x0 x1 (ix2 n mm)
      = Ideal.sqrt (sqDist (shapeCast S2097152x3 x0 shapeCasts_S3x1024x2048_S2097152x3) x1 n mm) := by
  rw [val_main_v8_apply, Ideal.hostUnary_sqrt_def, val_main_v7_apply, val_main_cst_apply, Ideal.ofBits_def,
    Ideal.ofBits_zero_f32, zero_add]
  refine congrArg Ideal.sqrt (Finset.sum_congr rfl fun k _ => ?_)
  have hp : idx_main_v1 (idx_main_v3 (idx_main_v7 (ix2 n mm) k)) = ix2 n k :=
    funext fun a => Fin.ext (by match a with | ⟨0, _⟩ => rfl | ⟨1, _⟩ => rfl)
  have hc : idx_main_v2 (idx_main_v4 (idx_main_v7 (ix2 n mm) k)) = ix2 mm k :=
    funext fun a => Fin.ext (by match a with | ⟨0, _⟩ => rfl | ⟨1, _⟩ => rfl)
  rw [val_main_v6_apply, val_main_v5_apply, val_main_v3_apply, val_main_v1_apply, val_main_v4_apply, val_main_v2_apply,
    hp, hc, Ideal.mulf_def, Ideal.subf_def]
  rfl

/-- The minimum over the colours at pixel `n` is the distance to the nearest colour. -/
theorem nearest_apply (x0 : (⟨S3x1024x2048, .f32⟩ : BufTy).Contents (Elt Ideal)) (x1 : (⟨S30x3, .f32⟩ : BufTy).Contents (Elt Ideal))
    (n : Fin 2097152) :
    val_main_v9 (F := Ideal) x0 x1 (ix1 n) = nearest (shapeCast S2097152x3 x0 shapeCasts_S3x1024x2048_S2097152x3) x1 n := by
  unfold val_main_v9
  rw [hostRowMin_apply _ _ reducesTo_S2097152x30_S2097152_d1 (by decide) h_S_ n, val_main_cst_0_apply, Ideal.ofBits_def,
    ofBits_inf]
  unfold nearest
  exact Finset.fold_congr fun mm _ => dist_apply x0 x1 n mm

/-- THE REFERENCE'S RESULT: one times the quotient by the pixel count of zero plus the total. -/
theorem result_apply (x0 : (⟨S3x1024x2048, .f32⟩ : BufTy).Contents (Elt Ideal)) (x1 : (⟨S30x3, .f32⟩ : BufTy).Contents (Elt Ideal))
    (i : S_.Idx) :
    val_main_v12 (F := Ideal) x0 x1 i
      = Ideal.ofBits .f32 0x3F800000#32
        * Ideal.div (Ideal.ofBits .f32 0x00000000#32 + total (shapeCast S2097152x3 x0 shapeCasts_S3x1024x2048_S2097152x3) x1)
            (Ideal.ofBits .f32 0x4A000000#32) := by
  rw [val_main_v12_apply, val_main_v11_apply, val_main_v10_apply, val_main_cst_3_apply, val_main_cst_2_apply,
    val_main_cst_1_apply, Ideal.mulf_def, Ideal.hostDivf_def, Ideal.ofBits_def, Ideal.ofBits_def, Ideal.ofBits_def,
    sum_idx1]
  unfold total
  simp only [nearest_apply]

end Cert.ReferenceIdeal.RefValue

end
-- ==== Proof.lean ====
/-
  Nearest printable colour, averaged: the tiled kernel against the one-pass reference, on the extended reals.

  Both programs lay the first argument out as a table of `2097152` pixels of three channels and compare every pixel
  with the thirty colours of the second argument.  The kernel program transposes both tables, walks the pixels in
  `64` tiles of `32768` lanes and, per lane, keeps the running minimum over the colours of the SQUARED distance,
  takes one square root, adds the lanes up and writes the tile's sum to a row of its result; the host then adds the
  `64` rows' first lanes, divides by the pixel count and multiplies by one.  The reference takes the root of every
  squared distance, the minimum over the colours, the sum over all pixels, the same quotient and the same factor.

  The two results are one extended real, with no use of the inputs' finiteness: the square root is monotone on the whole
  extended line, so it passes through the minimum; the nested minimum is the fold from `+∞`; sums regroup; and the
  factor one stands on the other side of a commutative product.  The word-level program's idealization rewrote no
  operation, so that conjunct is trivial; the three frames are the generated frame runs.
-/
import proofs.«138692_j2422361555121_2_alg».proof.Defs
import proofs.«138692_j2422361555121_2_alg».proof.Proof.Gen.Kernel
import proofs.«138692_j2422361555121_2_alg».proof.Proof.Gen.Kernel.Skeleton
import proofs.«138692_j2422361555121_2_alg».proof.Proof.Gen.Kernel.Launch
import proofs.«138692_j2422361555121_2_alg».proof.Proof.Gen.Kernel.Points
import proofs.«138692_j2422361555121_2_alg».proof.Proof.Gen.Kernel.Frame
import proofs.«138692_j2422361555121_2_alg».proof.Proof.Gen.KernelIdeal
import proofs.«138692_j2422361555121_2_alg».proof.Proof.Gen.KernelIdeal.Skeleton
import proofs.«138692_j2422361555121_2_alg».proof.Proof.Gen.KernelIdeal.Launch
import proofs.«138692_j2422361555121_2_alg».proof.Proof.Gen.KernelIdeal.Points
import proofs.«138692_j2422361555121_2_alg».proof.Proof.Gen.KernelIdeal.Frame
import proofs.«138692_j2422361555121_2_alg».proof.Proof.Gen.ReferenceIdeal
import proofs.«138692_j2422361555121_2_alg».proof.Proof.Gen.Pre_finite_inputs
import proofs.«138692_j2422361555121_2_alg».proof.Proof.Gen.ReferenceIdeal.Run
import proofs.«138692_j2422361555121_2_alg».proof.Proof.Gen.ReferenceIdeal.Read
import proofs.«138692_j2422361555121_2_alg».proof.Proof.KernelRun
import proofs.«138692_j2422361555121_2_alg».proof.Proof.RefValue
import Idealize.ShloMosaic.Adequacy
import Idealize.ShloMosaic.Init

noncomputable section

namespace Cert.Proof

open Idealize.ShloMosaic Idealize.ShloMosaic.TcCoe Idealize.SL.Sem Cert.NearestColour

/-- The kernel program's result is the reference's: both are the quotient by the pixel count of zero plus the sum over
    the pixels of the distance to the nearest colour, times one — the kernel's sum taken tile by tile with the root
    outside the minimum, its factor one on the right. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v12 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Tail.tailOf (Cert.KernelIdeal.Blocks.tiles m c) := by
  funext i
  rw [Cert.KernelIdeal.Tail.kernel_result, Cert.ReferenceIdeal.RefValue.result_apply, tiledTotal_eq_total, mul_comm]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and end with the same result: the kernel's run names its
    result, the reference's run ends at its composed term of the same arguments, and the two are equal (`result_eq`). -/
theorem algebraic : Cert.algebraic_KernelIdeal_ReferenceIdeal := by
  intro m ρ m' ρ' _ hagree
  refine ⟨fun c => Cert.KernelIdeal.Tail.tailOf (Cert.KernelIdeal.Blocks.tiles m c),
    Cert.KernelIdeal.Tail.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq (F := Ideal) _ _).trans (result_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
